-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x40 .f32) (main_arg5 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S5000x256 : Shape := ⟨2, ![5000, 256]⟩
abbrev S5000x128 : Shape := ⟨2, ![5000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 126
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S50000, .i32⟩
  | .hbm, ⟨71, _⟩ => ⟨S850000, .i32⟩
  | .hbm, ⟨72, _⟩ => ⟨S850000, .i32⟩
  | .hbm, ⟨73, _⟩ => ⟨S_, .f32⟩
  | .hbm, ⟨74, _⟩ => ⟨S850000, .f32⟩
  | .hbm, ⟨75, _⟩ => ⟨S_, .f32⟩
  | .hbm, ⟨76, _⟩ => ⟨S50000, .f32⟩
  | .hbm, ⟨77, _⟩ => ⟨S850000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .i1⟩
  | .hbm, ⟨82, _⟩ => ⟨S50000, .f32⟩
  | .hbm, ⟨83, _⟩ => ⟨S_, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S_, .i32⟩
  | .hbm, ⟨107, _⟩ => ⟨S850000, .i32⟩
  | .hbm, ⟨108, _⟩ => ⟨S850000, .i1⟩
  | .hbm, ⟨109, _⟩ => ⟨S_, .i32⟩
  | .hbm, ⟨110, _⟩ => ⟨S850000, .i32⟩
  | .hbm, ⟨111, _⟩ => ⟨S850000, .i32⟩
  | .hbm, ⟨112, _⟩ => ⟨S850000, .i32⟩
  | .hbm, ⟨113, _⟩ => ⟨S850000x1, .i32⟩
  | .hbm, ⟨114, _⟩ => ⟨S850000x40, .f32⟩
  | .hbm, ⟨115, _⟩ => ⟨S850000x1, .f32⟩
  | .hbm, ⟨116, _⟩ => ⟨S850000x40, .f32⟩
  | .hbm, ⟨117, _⟩ => ⟨S850000x40, .f32⟩
  | .hbm, ⟨118, _⟩ => ⟨S_, .f32⟩
  | .hbm, ⟨119, _⟩ => ⟨S50000x40, .f32⟩
  | .hbm, ⟨120, _⟩ => ⟨S850000x1, .i32⟩
  | .hbm, ⟨121, _⟩ => ⟨S50000x40, .f32⟩
  | .hbm, ⟨122, _⟩ => ⟨S1x40, .f32⟩
  | .hbm, ⟨123, _⟩ => ⟨S50000x40, .f32⟩
  | .hbm, ⟨124, _⟩ => ⟨S50000x40, .f32⟩
  | .hbm, ⟨125, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S5000x256_S256x128_S5000x128_1_0_0_1_n_n_wf : DotDims.WF S5000x256 S256x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S50000x40.size a
  hwx2_1 : ∀ i : grid2.Coords, EltTy.bits .f32 = 32 ∨ (Rect.block (s := S50000x40) S5000x40.size (cc2_transform_1 i) (hinb2_1 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v90) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x40, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x40, .f32⟩
  | 115 => ⟨S850000x1, .f32⟩
  | 116 => ⟨S850000x40, .f32⟩
  | 117 => ⟨S850000x40, .f32⟩
  | 118 => ⟨S_, .f32⟩
  | 119 => ⟨S50000x40, .f32⟩
  | 120 => ⟨S850000x1, .i32⟩
  | 121 => ⟨S50000x40, .f32⟩
  | 122 => ⟨S1x40, .f32⟩
  | 123 => ⟨S50000x40, .f32⟩
  | 124 => ⟨S50000x40, .f32⟩
  | 125 => ⟨S_, .f32⟩
  | 126 => ⟨S50000, .f32⟩
  | 127 => ⟨S_, .f32⟩
  | _ => ⟨S50000x256, .f32⟩

abbrev hbmTy0_1 (i : Nat) : BufTy := match i % 128 with
  | 0 => ⟨S50000, .f32⟩
  | 1 => ⟨S50000, .f32⟩
  | 2 => ⟨S50000x1, .f32⟩
  | 3 => ⟨S50000x40, .f32⟩
  | 4 => ⟨S50000x40, .f32⟩
  | 5 => ⟨S50000x40, .f32⟩
  | 6 => ⟨S_, .f32⟩
  | 7 => ⟨S50000, .f32⟩
  | 8 => ⟨S50000x1, .f32⟩
  | 9 => ⟨S50000x1, .f32⟩
  | 10 => ⟨S50000x40, .f32⟩
  | 11 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KRun.lean ====
/-
  The idealized kernel's run with its result named. The program is three grid launches among stretches of host
  operations; at the return every buffer that outlives a launch holds the last boundary's contents, the fold of the
  stretches and of the launches' write-backs from the launch memory. So the result buffer ends at that fold read at
  the result, and each argument, which nothing writes, at its launch contents.
-/
import proofs.«107621_j80255758893370_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and every argument as launched. -/
theorem run_named : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.GcnRun

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«107621_j80255758893370_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.Mat0.lean ====
/-
  The first launch: ten grid points, point t multiplying rows 5000 t … 5000 t + 4999 of the left array (256 columns)
  by the whole right array (256 by 128) on the matrix unit, into a zero accumulator, and writing the product back as
  the same rows of the output. The blocks cover the output, and each block of the whole product depends only on the
  same rows of the left array, so after the launch the output array is the whole product, entry by entry the sum
  over the 256 contraction positions.
-/
import proofs.«107621_j80255758893370_1_alg».proof.Proof.Gen.KernelIdeal.Frame
import proofs.«107621_j80255758893370_1_alg».proof.Proof.LibRows
import Idealize.ShloMosaic.Lib.Pipeline.Value
import Idealize.ShloMosaic.Lib.ValueIdx

set_option maxRecDepth 16384

noncomputable section

namespace Cert.KernelIdeal.GcnMat0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole product, entry by entry: row `i 0` of the left array against column `i 1` of the right one. -/
def prod (X : S50000x256.Idx → EReal) (W : S256x128.Idx → EReal) : S50000x128.Idx → EReal :=
  fun i => ∑ k : Fin 256, X (ix2 (⟨(i 0).val, (i 0).isLt⟩ : Fin 50000) k) * W (ix2 k (⟨(i 1).val, (i 1).isLt⟩ : Fin 128))

/-- It is the host's product with the plain dimension numbers. -/
theorem prod_eq_dotGeneral (X : FVec Ideal S50000x256 .f32) (W : FVec Ideal S256x128 .f32) :
    prod X W = Host.dotGeneral (DotDims.plain 50000 256 128) none X W := by
  funext i
  obtain ⟨P, q, rfl⟩ : ∃ (P : Fin 50000) (q : Fin 128), i = ix2 P q := ⟨i 0, i 1, eq_ix2 i⟩
  exact (Cert.LibRows.dotGeneral_plain_apply (DotDims.plain 50000 256 128) rfl none X W P q).symm

theorem hz : (![0, 0] : Fin 2 → Nat) = fun _ => 0 := funext fun a => by fin_cases a <;> rfl

/-- The block product the body stores, at an entry: row `p` of the left block against column `q` of the right array
    (rounding the factors to a narrower format changes nothing on the extended reals). -/
theorem pay_apply (x0 : Vec Ideal S5000x256 .f32) (x1 : Vec Ideal S256x128 .f32) (p : Fin 5000) (q : Fin 128) :
    k0_pay1 x0 x1 (ix2 p q) = ∑ i : Fin 256, x0 (ix2 p i) * x1 (ix2 i q) := by
  unfold k0_pay1
  exact Cert.LibRows.matmul_plain_apply dot_S5000x256_S256x128_S5000x128_1_0_0_1_n_n rfl none _ _ p q

/-- The printed index maps over the ten grid points: the left and the output windows move down the rows with the
    point, the right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product of the arrays the launch finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = prod (V c main_arg0) (V c main_arg2) (((cfg0.win 2).blk t).view.emb (ix2 p q))
  refine (pay_apply (iblk0 V c 0 t) (iblk0 V c 1 t) p q).trans ?_
  unfold prod
  refine Finset.sum_congr rfl fun k _ => ?_
  have hl : iblk0 V c 0 t (ix2 p k) = V c main_arg0 (ix2 (⟨((((cfg0.win 2).blk t).view.emb (ix2 p q)) 0).val, ((((cfg0.win 2).blk t).view.emb (ix2 p q)) 0).isLt⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hr : iblk0 V c 1 t (ix2 k q) = V c main_arg2 (ix2 k (⟨((((cfg0.win 2).blk t).view.emb (ix2 p q)) 1).val, ((((cfg0.win 2).blk t).view.emb (ix2 p q)) 1).isLt⟩ : Fin 128)) := by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [hl, hr]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The ten blocks of 5000 rows cover the array: row `r` is in block `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array holds the whole product of the two input arrays as the launch found them. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.GcnMat0

end
-- ==== Proof.Mat1.lean ====
/-
  The second launch: ten grid points, point t multiplying rows 5000 t … 5000 t + 4999 of the hidden array (128
  columns) by the whole second weight array (128 by 40) on the matrix unit, into a zero accumulator, and writing the
  product back as the same rows of the output. As for the first launch the blocks cover the output, so after the
  launch the output array is the whole product, entry by entry the sum over the 128 contraction positions.
-/
import proofs.«107621_j80255758893370_1_alg».proof.Proof.Gen.KernelIdeal.Frame
import proofs.«107621_j80255758893370_1_alg».proof.Proof.LibRows
import Idealize.ShloMosaic.Lib.Pipeline.Value
import Idealize.ShloMosaic.Lib.ValueIdx

set_option maxRecDepth 16384

noncomputable section

namespace Cert.KernelIdeal.GcnMat1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The whole product, entry by entry: row `i 0` of the left array against column `i 1` of the right one. -/
def prod (X : S50000x128.Idx → EReal) (W : S128x40.Idx → EReal) : S50000x40.Idx → EReal :=
  fun i => ∑ k : Fin 128, X (ix2 (⟨(i 0).val, (i 0).isLt⟩ : Fin 50000) k) * W (ix2 k (⟨(i 1).val, (i 1).isLt⟩ : Fin 40))

/-- It is the host's product with the plain dimension numbers. -/
theorem prod_eq_dotGeneral (X : FVec Ideal S50000x128 .f32) (W : FVec Ideal S128x40 .f32) :
    prod X W = Host.dotGeneral (DotDims.plain 50000 128 40) none X W := by
  funext i
  obtain ⟨P, q, rfl⟩ : ∃ (P : Fin 50000) (q : Fin 40), i = ix2 P q := ⟨i 0, i 1, eq_ix2 i⟩
  exact (Cert.LibRows.dotGeneral_plain_apply (DotDims.plain 50000 128 40) rfl none X W P q).symm

theorem hz : (![0, 0] : Fin 2 → Nat) = fun _ => 0 := funext fun a => by fin_cases a <;> rfl

/-- The block product the body stores, at an entry: row `p` of the left block against column `q` of the right array
    (rounding the factors to a narrower format changes nothing on the extended reals). -/
theorem pay_apply (x0 : Vec Ideal S5000x128 .f32) (x1 : Vec Ideal S128x40 .f32) (p : Fin 5000) (q : Fin 40) :
    k1_pay1 x0 x1 (ix2 p q) = ∑ i : Fin 128, x0 (ix2 p i) * x1 (ix2 i q) := by
  unfold k1_pay1
  simp only [shapeCast_self]
  exact Cert.LibRows.matmul_plain_apply dot_S5000x128_S128x40_S5000x40_1_0_0_1_n_n rfl none _ _ p q

/-- The printed index maps over the ten grid points: the left and the output windows move down the rows with the
    point, the right window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the whole product of the arrays the launch finds. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x40) hz]
  obtain ⟨e0, e1, e2, e3, e4, e5⟩ := idx_facts t
  funext j
  obtain ⟨p, q, rfl⟩ : ∃ (p : Fin 5000) (q : Fin 40), j = ix2 p q := ⟨j 0, j 1, eq_ix2 j⟩
  show k1_pay1 (iblk1 V c 0 t) (iblk1 V c 1 t) (ix2 p q) = prod (V c main_v47) (V c main_arg4) (((cfg1.win 2).blk t).view.emb (ix2 p q))
  refine (pay_apply (iblk1 V c 0 t) (iblk1 V c 1 t) p q).trans ?_
  unfold prod
  refine Finset.sum_congr rfl fun k _ => ?_
  have hl : iblk1 V c 0 t (ix2 p k) = V c main_v47 (ix2 (⟨((((cfg1.win 2).blk t).view.emb (ix2 p q)) 0).val, ((((cfg1.win 2).blk t).view.emb (ix2 p q)) 0).isLt⟩ : Fin 50000) k) := by
    show V c main_v47 (((cfg1.win 0).blk t).view.emb (ix2 p k)) = _
    refine congrArg (V c main_v47) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  have hr : iblk1 V c 1 t (ix2 k q) = V c main_arg4 (ix2 k (⟨((((cfg1.win 2).blk t).view.emb (ix2 p q)) 1).val, ((((cfg1.win 2).blk t).view.emb (ix2 p q)) 1).isLt⟩ : Fin 40)) := by
    show V c main_arg4 (((cfg1.win 1).blk t).view.emb (ix2 k q)) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 40 + 1 * q.val = win1_2.index t (1 : Fin 2) * 40 + 1 * q.val; omega
  rw [hl, hr]

/-- An index of the array is in point `t`'s block iff each coordinate is in the block's range on its axis. -/
theorem mem_blk (t : Fin cfg1.N) (i : S50000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- The ten blocks of 5000 rows cover the array: row `r` is in block `r / 5000`. -/
theorem cover (i : S50000x40.Idx) : ∃ t : Fin cfg1.N, (cfg1.win 2).flush t = true ∧ i ∈ ((cfg1.win 2).blk t).view.set := by
  have hi0 : (i 0).val < 50000 := (i 0).isLt
  have hi1 : (i 1).val < 40 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- After the launch the output array holds the whole product of the two input arrays as the launch found them. -/
theorem final (c : Dev nD) : (dat1 V c).arrAt 2 cfg1.N = prod (V c main_v47) (V c main_arg4) :=
  (dat1 V c).arrAt_eq_of_cover 2 (prod (V c main_v47) (V c main_arg4)) (fun t _ => flushed_eq V c t) cover

end Cert.KernelIdeal.GcnMat1

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.RowLsm.lean ====
/-
  The logarithm of a softmax along one row of 40 numbers, on the extended reals: subtract the row's maximum (the
  fold of `max` from -∞ over the row), then subtract the logarithm of the sum of the exponentials of what is left.
  Both programs' last step is this function of a row; they differ only in how the maximum and the sum are spelt.
-/
import Idealize.ShloMosaic.PureOps.Ideal
import Idealize.ShloMosaic.PureOps.Ideal.Laws
import Idealize.ShloMosaic.Lib.ValueIdx

noncomputable section

namespace Cert.RowLsm

open Idealize.ShloMosaic Idealize.ShloMosaic.ValueIdx

/-- The row's maximum: the fold of `max` from -∞. -/
def rowMax (row : Fin 40 → EReal) : EReal :=
  (Finset.univ : Finset (Fin 40)).fold max (Ideal.ofBits .f32 0xFF800000#32) row

/-- The logarithm of the row's softmax at column `q`. -/
def lsmRow (row : Fin 40 → EReal) (q : Fin 40) : EReal :=
  (row q - rowMax row) - Ideal.log (∑ k : Fin 40, Ideal.exp (row k - rowMax row))

/-- Taking the maximum with -∞ once more changes nothing: the fold already starts there. -/
theorem max_bot_rowMax (row : Fin 40 → EReal) :
    max (Ideal.ofBits .f32 0xFF800000#32) (rowMax row) = rowMax row :=
  max_eq_right ((Finset.le_fold_max _).mpr (Or.inl le_rfl))

/-- The logarithm of the softmax along every row of a 50000 × 40 array. -/
def lsmAll (Z : (⟨2, ![50000, 40]⟩ : Shape).Idx → EReal) : (⟨2, ![50000, 40]⟩ : Shape).Idx → EReal :=
  fun i => lsmRow (fun k => Z (ix2 (⟨(i 0).val, (i 0).isLt⟩ : Fin 50000) k)) (⟨(i 1).val, (i 1).isLt⟩ : Fin 40)

/-- At row `P`, column `q`, it is the row function of row `P`. -/
theorem lsmAll_apply (Z : (⟨2, ![50000, 40]⟩ : Shape).Idx → EReal) (P : Fin 50000) (q : Fin 40) :
    lsmAll Z (ix2 P q) = lsmRow (fun k => Z (ix2 P k)) q := rfl

end Cert.RowLsm

end
-- ==== Proof.LsmK.lean ====
/-
  What the last launch's body stores, entry by entry on the extended reals. The body loads a block of 5000 rows of
  40 numbers; per row it takes the maximum and the sum of the exponentials of the row minus its maximum, makes each a
  column, repeats the column across the 40 columns, and stores row minus maximum minus the logarithm of that sum. So
  the entry at row `p`, column `q` is the logarithm of the softmax of row `p` of the block, at `q`.
-/
import proofs.«107621_j80255758893370_1_alg».proof.Proof.Gen.KernelIdeal.Skeleton
import proofs.«107621_j80255758893370_1_alg».proof.Proof.LibCols
import proofs.«107621_j80255758893370_1_alg».proof.Proof.RowLsm
import Idealize.ShloMosaic.PureOps.Ideal.Laws
import Idealize.ShloMosaic.Lib.Pipeline.Value
import Idealize.ShloMosaic.Lib.ValueIdx

noncomputable section

namespace Cert.KernelIdeal.GcnLsm

open Cert.KernelIdeal Cert.KernelIdeal.Gen
open Idealize.ShloMosaic Idealize.ShloMosaic.ValueIdx Cert.RowLsm

/-- The index the row reduction inserts at row `p`, position `k`, is `(p, k)`. -/
theorem lift_row (p : Fin 5000) (k : Fin 40) : reduces_S5000x40_S5000.lift (ix1 p) k = ix2 p k :=
  funext fun a => Fin.ext (by
    match a with
    | ⟨0, _⟩ => rfl
    | ⟨1, _⟩ => rfl)

/-- The vector unit's row maximum at row `p`: the fold of `max` from -∞ over the row. -/
theorem rowmax_apply (v : FVec Ideal S5000x40 .f32) (p : Fin 5000) :
    multiReduction .maximumf [1] S5000 v 0xFF800000#32 reduces_S5000x40_S5000 (.inl rfl) rfl (ix1 p)
      = rowMax (fun k => v (ix2 p k)) := by
  refine (Ideal.multiReduction_maximumf_single v _ reduces_S5000x40_S5000 (.inl rfl) rfl (ix1 p)).trans ?_
  show (Finset.univ : Finset (Fin 40)).fold max _ (fun k : Fin 40 => v (reduces_S5000x40_S5000.lift (ix1 p) k)) = _
  simp only [lift_row]
  rfl

/-- The vector unit's row sum at row `p`: the sum over the row. -/
theorem rowsum_apply (v : FVec Ideal S5000x40 .f32) (p : Fin 5000) :
    multiReduction .add [1] S5000 v 0x00000000#32 reduces_S5000x40_S5000 (.inl rfl) rfl (ix1 p)
      = ∑ k : Fin 40, v (ix2 p k) := by
  refine (Ideal.multiReduction_add_single v _ reduces_S5000x40_S5000 (.inl rfl) rfl (ix1 p)).trans ?_
  show ∑ k : Fin 40, v (reduces_S5000x40_S5000.lift (ix1 p) k) = _
  simp only [lift_row]

/-- A per-row number made a column and repeated across the 40 columns reads the row's number. -/
theorem col_apply (r : FVec Ideal S5000 .f32) (p : Fin 5000) (q : Fin 40) :
    broadcastTo S5000x40 (shapeCast S5000x1 r shapeCasts_S5000_S5000x1) broadcasts_S5000x1_S5000x40 (ix2 p q) = r (ix1 p) := by
  rw [Cert.LibCols.broadcastTo_a1_ab_apply, Cert.LibCols.shapeCast_a_a1_apply]

/-- A vector's logarithm and exponential are taken entry by entry. -/
theorem log_apply {s : Shape} (a : FVec Ideal s .f32) (i : s.Idx) : log a i = Ideal.log (a i) := rfl
theorem exp_apply {s : Shape} (a : FVec Ideal s .f32) (i : s.Idx) : exp a i = Ideal.exp (a i) := rfl

/-- The stored entry at row `p`, column `q`: the logarithm of the softmax of the block's row `p`, at `q`. -/
theorem pay_apply (x0 : Vec Ideal S5000x40 .f32) (p : Fin 5000) (q : Fin 40) :
    k2_pay1 x0 (ix2 p q) = lsmRow (fun k => x0 (ix2 p k)) q := by
  have hmax : ∀ k : Fin 40, broadcastTo S5000x40 (shapeCast S5000x1 (multiReduction (F := Ideal) .maximumf [1] S5000 x0 0xFF800000#32 reduces_S5000x40_S5000 (.inl rfl) rfl) shapeCasts_S5000_S5000x1) broadcasts_S5000x1_S5000x40 (ix2 p k)
      = rowMax (fun k => x0 (ix2 p k)) := fun k => by rw [col_apply, rowmax_apply]
  unfold k2_pay1 lsmRow
  simp only [shapeCast_self, subf_apply, hmax, Cert.LibCols.broadcastTo_a1_ab_apply, log_apply,
    Cert.LibCols.shapeCast_a_a1_apply]
  rw [rowsum_apply]
  simp only [exp_apply, subf_apply, hmax]

end Cert.KernelIdeal.GcnLsm

end
-- ==== Proof.Reg2.lean ====
/-
  The third launch: ten grid points, point t loading rows 5000 t … 5000 t + 4999 of the second layer's output (40
  columns) and storing, as the same rows of the result, the logarithm of each row's softmax. A row of the result
  depends on the same row of the input alone, and the blocks cover the result, so after the launch the result array is
  the logarithm of the softmax along every row of the array the launch found.
-/
import proofs.«107621_j80255758893370_1_alg».proof.Proof.Gen.KernelIdeal.Frame
import proofs.«107621_j80255758893370_1_alg».proof.Proof.LsmK
import Idealize.ShloMosaic.Lib.Pipeline.Value
import Idealize.ShloMosaic.Lib.ValueIdx

set_option maxRecDepth 16384

noncomputable section

namespace Cert.KernelIdeal.GcnReg2

open Cert.KernelIdeal Cert.KernelIdeal.Gen
open Idealize.ShloMosaic Idealize.ShloMosaic.TcCoe Idealize.ShloMosaic.ValueIdx Idealize.SL.Sem Cert.RowLsm
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: both windows move down the rows with the point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Every block of rows is some point's. -/
theorem idx_onto : ∀ q0 : Fin 10, ∃ t : Fin cfg2.N, win2_1.index t = ![q0.val, 0] :=
  (by decide +kernel : ∀ q0 : Fin 10, ∃ t : Fin grid2.N, win2_1.index t = ![q0.val, 0])

/-- What point `t` writes back is block `t` of the row-wise function of the array the launch finds. -/
theorem flushed_eq (c : Dev nD) (t : Fin cfg2.N) :
    (dat2 V c).flushed 1 t = ((cfg2.win 1).blk t).view.read (Elt Ideal) (lsmAll (V c main_v90)) := by
  show (cfg2.win 1).cut (grid2.coords t) ((dat2 V c).after 1 t) = _
  rw [after2_1]
  unfold out2_1
  rw [View.canon_unit_zero hz]
  simp only [View.ld_unit_zero (S := S5000x40) hz]
  obtain ⟨e0, e1, e2, e3⟩ := idx_facts t
  funext j
  obtain ⟨p, q, rfl⟩ : ∃ (p : Fin 5000) (q : Fin 40), j = ix2 p q := ⟨j 0, j 1, eq_ix2 j⟩
  show k2_pay1 (iblk2 V c 0 t) (ix2 p q) = lsmAll (V c main_v90) (((cfg2.win 1).blk t).view.emb (ix2 p q))
  refine (Cert.KernelIdeal.GcnLsm.pay_apply (iblk2 V c 0 t) p q).trans ?_
  unfold lsmAll
  have hrow : ∀ k : Fin 40, iblk2 V c 0 t (ix2 p k) = V c main_v90 (ix2 (⟨((((cfg2.win 1).blk t).view.emb (ix2 p q)) 0).val, ((((cfg2.win 1).blk t).view.emb (ix2 p q)) 0).isLt⟩ : Fin 50000) k) := fun k => by
    show V c main_v90 (((cfg2.win 0).blk t).view.emb (ix2 p k)) = _
    refine congrArg (V c main_v90) (funext fun a => Fin.ext ?_)
    match a with
    | ⟨0, _⟩ => show win2_0.index t (0 : Fin 2) * 5000 + 1 * p.val = win2_1.index t (0 : Fin 2) * 5000 + 1 * p.val; omega
    | ⟨1, _⟩ => show win2_0.index t (1 : Fin 2) * 40 + 1 * k.val = k.val; omega
  have hq : q = (⟨((((cfg2.win 1).blk t).view.emb (ix2 p q)) 1).val, ((((cfg2.win 1).blk t).view.emb (ix2 p q)) 1).isLt⟩ : Fin 40) :=
    Fin.ext (by show q.val = win2_1.index t (1 : Fin 2) * 40 + 1 * q.val; omega)
  simp only [hrow]
  exact congrArg (lsmRow _) hq

/-- An index of the array is in point `t`'s block iff each coordinate is in the block's range on its axis. -/
theorem mem_blk (t : Fin cfg2.N) (i : S50000x40.Idx) :
    i ∈ ((cfg2.win 1).blk t).view.set ↔ ∀ a : Fin 2, win2_1.index t a * S5000x40.size a ≤ (i a).val ∧ (i a).val < win2_1.index t a * S5000x40.size a + S5000x40.size a := by
  show i ∈ ((View.whole main_v91).slice (win2_1.rect t)).set ↔ _
  rw [View.set_slice_whole, Rect.mem_set_unit]
  exact Iff.rfl

/-- The ten blocks of 5000 rows cover the array: row `r` is in block `r / 5000`. -/
theorem cover (i : S50000x40.Idx) : ∃ t : Fin cfg2.N, (cfg2.win 1).flush t = true ∧ i ∈ ((cfg2.win 1).blk t).view.set := by
  have hi0 : (i 0).val < 50000 := (i 0).isLt
  have hi1 : (i 1).val < 40 := (i 1).isLt
  obtain ⟨t, ht⟩ := idx_onto ⟨(i 0).val / 5000, by omega⟩
  have q0 : win2_1.index t (0 : Fin 2) = (i 0).val / 5000 := congrFun ht 0
  have q1 : win2_1.index t (1 : Fin 2) = 0 := congrFun ht 1
  refine ⟨t, flush2_1 t, ?_⟩
  rw [mem_blk]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 40 ≤ (i 1).val ∧ (i 1).val < win2_1.index t (1 : Fin 2) * 40 + 40; omega

/-- After the launch the result array holds the logarithm of the softmax along every row of the array the launch found. -/
theorem final (c : Dev nD) : (dat2 V c).arrAt 1 cfg2.N = lsmAll (V c main_v90) :=
  (dat2 V c).arrAt_eq_of_cover 1 (lsmAll (V c main_v90)) (fun t _ => flushed_eq V c t) cover

end Cert.KernelIdeal.GcnReg2

end
-- ==== Proof.Spec.lean ====
/-
  The graph convolution both programs compute, as functions of arrays, with the two dense products and the final
  row normalisation left as holes.
  Nodes are 50000, edges 800000; every node gets a self loop, so there are 850000 (source, target) pairs: the edge
  list's row of sources (resp. targets) followed by the nodes themselves. The degree of a node counts the pairs that
  target it; `dinv` is its inverse square root where the degree is positive and 0 elsewhere; a pair's weight is
  `dinv source · dinv target`. A layer takes the rows `h` of a dense product, gathers the source row of every pair,
  scales it by the pair's weight, adds the scaled rows up at the pair's target, and adds the bias row. Between the two
  layers negative entries are cut to 0. The reference ends with the logarithm of a row-wise softmax: subtract the
  row's maximum, then the logarithm of the sum of the exponentials of what is left.
  Both programs apply these very operations; the proof carries the layers as the opaque functions they are.
-/
import proofs.«107621_j80255758893370_1_alg».proof.Proof.Gen.ReferenceIdeal

noncomputable section

namespace Cert.Gcn

open Cert.ReferenceIdeal Cert.ReferenceIdeal.Facts₀ Cert.ReferenceIdeal.Facts
open Idealize.ShloMosaic Idealize.ShloMosaic.TcCoe Idealize.SL.Sem

variable {F : FTy → Type} [FloatOps F]

/-- Row 0 of the edge list as a vector: the edges' sources. -/
def row0 (x1 : (⟨S2x800000, .i32⟩ : BufTy).Contents (Elt F)) : (⟨S800000, .i32⟩ : BufTy).Contents (Elt F) :=
  shapeCast S800000 (extractStridedSlice S1x800000 ![0, 0] x1 slices_S2x800000_S1x800000_0_0) shapeCasts_S1x800000_S800000

/-- Row 1 of the edge list as a vector: the edges' targets. -/
def row1 (x1 : (⟨S2x800000, .i32⟩ : BufTy).Contents (Elt F)) : (⟨S800000, .i32⟩ : BufTy).Contents (Elt F) :=
  shapeCast S800000 (extractStridedSlice S1x800000 ![1, 0] x1 slices_S2x800000_S1x800000_1_0) shapeCasts_S1x800000_S800000

/-- The edges' endpoints followed by the nodes themselves (the self loops). -/
def withLoops (e : (⟨S800000, .i32⟩ : BufTy).Contents (Elt F)) : (⟨S850000, .i32⟩ : BufTy).Contents (Elt F) :=
  concatenate S850000 0 [⟨S800000, e⟩, ⟨S50000, (iotaInDim S50000 32 0)⟩] concatenates_S800000_S50000_S850000_d0

/-- A negative node number counts from the end. -/
def wrap (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The number of pairs that target each node. -/
def deg (d0 : (⟨S800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (withLoops d0)) (broadcastInDim S850000 ![] bcast_S_S850000 (constant S_ .f32 0x3F800000#32))

/-- The inverse square root of the degree where it is positive, 0 elsewhere. -/
def dinv (d0 : (⟨S800000, .i32⟩ : BufTy).Contents (Elt F)) : (⟨S50000, .f32⟩ : BufTy).Contents (Elt F) :=
  select (cmpf (F := F) .ogt (deg d0) (broadcastInDim S50000 ![] bcast_S_S50000 (constant S_ .f32 0x00000000#32))) (Host.rsqrt (deg d0)) (broadcastInDim S50000 ![] bcast_S_S50000 (id (constant S_ .f32 0x00000000#32)))

/-- The weight of every pair: `dinv` at its source times `dinv` at its target. -/
def weight (s0 d0 : (⟨S800000, .i32⟩ : BufTy).Contents (Elt F)) : (⟨S850000, .f32⟩ : BufTy).Contents (Elt F) :=
  mulf (Host.gather gather_S50000_S850000x1_S850000_n_0_n_n_0_1_1 (dinv d0) (broadcastInDim S850000x1 ![0] bcast_S850000_S850000x1_0 (wrap (withLoops s0)))) (Host.gather gather_S50000_S850000x1_S850000_n_0_n_n_0_1_1 (dinv d0) (broadcastInDim S850000x1 ![0] bcast_S850000_S850000x1_0 (wrap (withLoops d0))))

/-- The first layer after its dense product `h`: weighted source rows added up at the targets, plus the bias row. -/
def layer128 (s0 d0 : (⟨S800000, .i32⟩ : BufTy).Contents (Elt F)) (h : (⟨S50000x128, .f32⟩ : BufTy).Contents (Elt F)) (b : (⟨S128, .f32⟩ : BufTy).Contents (Elt F)) : (⟨S50000x128, .f32⟩ : BufTy).Contents (Elt F) :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (withLoops d0)) (mulf (Host.gather gather_S50000x128_S850000x1_S850000x128_1_0_n_n_0_1_1128 h (broadcastInDim S850000x1 ![0] bcast_S850000_S850000x1_0 (wrap (withLoops s0)))) (broadcastInDim S850000x128 ![0, 1] bcast_S850000x1_S850000x128_0_1 (broadcastInDim S850000x1 ![0] bcast_S850000_S850000x1_0 (weight s0 d0))))) (broadcastInDim S50000x128 ![0, 1] bcast_S1x128_S50000x128_0_1 (broadcastInDim S1x128 ![1] bcast_S128_S1x128_1 b))

/-- Negative entries cut to 0. -/
def relu128 (z : (⟨S50000x128, .f32⟩ : BufTy).Contents (Elt F)) : (⟨S50000x128, .f32⟩ : BufTy).Contents (Elt F) :=
  maximumf z (broadcastInDim S50000x128 ![] bcast_S_S50000x128 (constant S_ .f32 0x00000000#32))

/-- The second layer after its dense product `h`. -/
def layer40 (s0 d0 : (⟨S800000, .i32⟩ : BufTy).Contents (Elt F)) (h : (⟨S50000x40, .f32⟩ : BufTy).Contents (Elt F)) (b : (⟨S40, .f32⟩ : BufTy).Contents (Elt F)) : (⟨S50000x40, .f32⟩ : BufTy).Contents (Elt F) :=
  addf (Host.scatterAdd scatter_S50000x40_S850000x1_S850000x40_1_0_0_1 (broadcastInDim S50000x40 ![] bcast_S_S50000x40 (constant S_ .f32 0x00000000#32)) (broadcastInDim S850000x1 ![0] bcast_S850000_S850000x1_0 (withLoops d0)) (mulf (Host.gather gather_S50000x40_S850000x1_S850000x40_1_0_n_n_0_1_140 h (broadcastInDim S850000x1 ![0] bcast_S850000_S850000x1_0 (wrap (withLoops s0)))) (broadcastInDim S850000x40 ![0, 1] bcast_S850000x1_S850000x40_0_1 (broadcastInDim S850000x1 ![0] bcast_S850000_S850000x1_0 (weight s0 d0))))) (broadcastInDim S50000x40 ![0, 1] bcast_S1x40_S50000x40_0_1 (broadcastInDim S1x40 ![1] bcast_S40_S1x40_1 b))

/-- Every row's maximum, repeated along the row, as the reference spells it. -/
def rowMaxRef (z : (⟨S50000x40, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x40_S50000_d1 h_S_)))

/-- The reference's last step: the logarithm of the row-wise softmax. -/
def logSoftmaxRef (z : (⟨S50000x40, .f32⟩ : BufTy).Contents (Elt F)) : (⟨S50000x40, .f32⟩ : BufTy).Contents (Elt F) :=
  subf (subf z (rowMaxRef z)) (broadcastInDim S50000x40 ![0, 1] bcast_S50000x1_S50000x40_0_1 (Host.log (broadcastInDim S50000x1 ![0] bcast_S50000_S50000x1_0 (Host.reduceAdd (Host.exp (subf z (rowMaxRef z))) (constant S_ .f32 0x00000000#32) reducesTo_S50000x40_S50000_d1 h_S_))))

/-- The whole reference: two layers, each a dense product followed by the aggregation, the cut between them, the
    logarithm of the softmax at the end. -/
def refOut (x0 : (⟨S50000x256, .f32⟩ : BufTy).Contents (Elt F)) (x1 : (⟨S2x800000, .i32⟩ : BufTy).Contents (Elt F))
    (x2 : (⟨S256x128, .f32⟩ : BufTy).Contents (Elt F)) (x3 : (⟨S128, .f32⟩ : BufTy).Contents (Elt F))
    (x4 : (⟨S128x40, .f32⟩ : BufTy).Contents (Elt F)) (x5 : (⟨S40, .f32⟩ : BufTy).Contents (Elt F)) : (⟨S50000x40, .f32⟩ : BufTy).Contents (Elt F) :=
  logSoftmaxRef (layer40 (row0 x1) (row1 x1) (Host.dotGeneral dot_S50000x128_S128x40_S50000x40_1_0_0_1_n_n none (relu128 (layer128 (row0 x1) (row1 x1) (Host.dotGeneral dot_S50000x256_S256x128_S50000x128_1_0_0_1_n_n none x0 x2) x3)) x4) x5)

end Cert.Gcn

end
-- ==== Proof.ChainK.lean ====
/-
  The host operations between the kernel's launches, read back. From whatever the buffers hold when a stretch
  begins, the stretch before the first launch leaves the two rows of the edge list as vectors; the stretches between
  the first and the second launch leave the first layer's aggregation of the first product, cut at 0; the stretches
  between the second and the third leave the second layer's aggregation of the second product. They are the
  operations of the reference, line for line, so each result is the reference's function of the same operands; and
  every buffer a stretch does not write is left as it was.
-/
import proofs.«107621_j80255758893370_1_alg».proof.Proof.Gen.KernelIdeal.Launch
import proofs.«107621_j80255758893370_1_alg».proof.Proof.Spec
import Idealize.ShloMosaic.Lib.StableHlo.Run

set_option maxRecDepth 16384

noncomputable section

namespace Cert.KernelIdeal.GcnChain

open Cert.KernelIdeal Cert.KernelIdeal.Gen
open Idealize.ShloMosaic Idealize.ShloMosaic.TcCoe Idealize.SL.Sem Idealize.ShloMosaic.StableHlo

variable {F : FTy → Type} [FloatOps F]

variable (W : Valuation τ sig (Elt F))

set_option maxHeartbeats 4000000 in
/-- Between the first and the second launch: the first layer's aggregation of the first product, cut at 0. -/
theorem hidden_eq :
    after hostOps1_3 (after hostOps1_2 (after hostOps1_1 (after hostOps1 W))) (Proc.devRef .tc main_v47)
      = Cert.Gcn.relu128 (Cert.Gcn.layer128 (W (Proc.devRef .tc main_v1)) (W (Proc.devRef .tc main_v3)) (W (Proc.devRef .tc main_v4)) (W (Proc.devRef .tc main_arg3))) := by
  after_results_simp
  rfl

set_option maxHeartbeats 4000000 in
/-- Between the second and the third launch: the second layer's aggregation of the second product. -/
theorem out_eq :
    after hostOps2_2 (after hostOps2_1 (after hostOps2 W)) (Proc.devRef .tc main_v90)
      = Cert.Gcn.layer40 (W (Proc.devRef .tc main_v1)) (W (Proc.devRef .tc main_v3)) (W (Proc.devRef .tc main_v48)) (W (Proc.devRef .tc main_arg5)) := by
  after_results_simp
  rfl

/-- Before the first launch: the edge list's two rows as vectors. -/
theorem row0_eq : after hostOps0 W (Proc.devRef .tc main_v1) = Cert.Gcn.row0 (W (Proc.devRef .tc main_arg1)) := by
  after_results_simp
  rfl
theorem row1_eq : after hostOps0 W (Proc.devRef .tc main_v3) = Cert.Gcn.row1 (W (Proc.devRef .tc main_arg1)) := by
  after_results_simp
  rfl

/-! What the stretches leave alone. -/

theorem pre_keep_arg0 : after hostOps0 W (Proc.devRef .tc main_arg0) = W (Proc.devRef .tc main_arg0) := by
  after_results_simp
theorem pre_keep_arg2 : after hostOps0 W (Proc.devRef .tc main_arg2) = W (Proc.devRef .tc main_arg2) := by
  after_results_simp
theorem pre_keep_arg3 : after hostOps0 W (Proc.devRef .tc main_arg3) = W (Proc.devRef .tc main_arg3) := by
  after_results_simp
theorem pre_keep_arg4 : after hostOps0 W (Proc.devRef .tc main_arg4) = W (Proc.devRef .tc main_arg4) := by
  after_results_simp
theorem pre_keep_arg5 : after hostOps0 W (Proc.devRef .tc main_arg5) = W (Proc.devRef .tc main_arg5) := by
  after_results_simp

set_option maxHeartbeats 4000000 in
theorem mid_keep_v1 :
    after hostOps1_3 (after hostOps1_2 (after hostOps1_1 (after hostOps1 W))) (Proc.devRef .tc main_v1) = W (Proc.devRef .tc main_v1) := by
  after_results_simp
set_option maxHeartbeats 4000000 in
theorem mid_keep_v3 :
    after hostOps1_3 (after hostOps1_2 (after hostOps1_1 (after hostOps1 W))) (Proc.devRef .tc main_v3) = W (Proc.devRef .tc main_v3) := by
  after_results_simp
set_option maxHeartbeats 4000000 in
theorem mid_keep_arg4 :
    after hostOps1_3 (after hostOps1_2 (after hostOps1_1 (after hostOps1 W))) (Proc.devRef .tc main_arg4) = W (Proc.devRef .tc main_arg4) := by
  after_results_simp
set_option maxHeartbeats 4000000 in
theorem mid_keep_arg5 :
    after hostOps1_3 (after hostOps1_2 (after hostOps1_1 (after hostOps1 W))) (Proc.devRef .tc main_arg5) = W (Proc.devRef .tc main_arg5) := by
  after_results_simp

end Cert.KernelIdeal.GcnChain

end
-- ==== Proof.LsmR.lean ====
/-
  The reference's last step, entry by entry on the extended reals. It reduces every row by `max` from -∞ and takes
  the maximum with -∞ once more (which changes nothing), makes the result a column and repeats it across the 40
  columns; likewise the sum, from 0, of the exponentials of the array minus its row maxima. So its entry at row `P`,
  column `q` is the logarithm of the softmax of row `P`, at `q`: the function the kernel's last launch stores.
-/
import proofs.«107621_j80255758893370_1_alg».proof.Proof.Spec
import proofs.«107621_j80255758893370_1_alg».proof.Proof.LibCols
import proofs.«107621_j80255758893370_1_alg».proof.Proof.LibRows
import proofs.«107621_j80255758893370_1_alg».proof.Proof.RowLsm
import Idealize.ShloMosaic.PureOps.Ideal.Laws
import Idealize.ShloMosaic.PureOps.Reduce
import Idealize.ShloMosaic.Lib.Pipeline.Value
import Idealize.ShloMosaic.Lib.ValueIdx

noncomputable section

namespace Cert.Gcn

open Cert.ReferenceIdeal Cert.ReferenceIdeal.Gen
open Idealize.ShloMosaic Idealize.ShloMosaic.ValueIdx Cert.RowLsm

/-- Dropping the last axis of a 50000 × 40 array leaves 50000 entries. -/
theorem reduces_S50000x40_S50000_d1 : S50000x40.Reduces [1] S50000 := by decide

/-- The index a reduction of the last axis inserts at row `P`, position `k`, is `(P, k)`. -/
theorem lift_rowR (P : Fin 50000) (k : Fin 40) : reduces_S50000x40_S50000_d1.lift (ix1 P) k = ix2 P k :=
  funext fun a => Fin.ext (by
    match a with
    | ⟨0, _⟩ => rfl
    | ⟨1, _⟩ => rfl)

/-- The host's row maximum at row `P`: the fold of `max` from -∞ over the row. -/
theorem hostMax_apply (z : FVec Ideal S50000x40 .f32) (P : Fin 50000) :
    Host.reduce FloatOps.maximumf z (constant (F := Ideal) S_ .f32 0xFF800000#32) reducesTo_S50000x40_S50000_d1 h_S_ (ix1 P)
      = rowMax (fun k => z (ix2 P k)) := by
  refine (Host.reduce_eq_fold_single FloatOps.maximumf z _ reducesTo_S50000x40_S50000_d1 reduces_S50000x40_S50000_d1 h_S_ (ix1 P)).trans ?_
  show (Finset.univ : Finset (Fin 40)).fold max _ (fun k : Fin 40 => z (reduces_S50000x40_S50000_d1.lift (ix1 P) k)) = _
  simp only [lift_rowR]
  rfl

/-- The host's row sum from 0 at row `P`: the sum over the row. -/
theorem hostSum_apply (z : FVec Ideal S50000x40 .f32) (P : Fin 50000) :
    Host.reduceAdd z (constant (F := Ideal) S_ .f32 0x00000000#32) reducesTo_S50000x40_S50000_d1 h_S_ (ix1 P)
      = ∑ k : Fin 40, z (ix2 P k) := by
  show Ideal.hostReduceAdd reducesTo_S50000x40_S50000_d1 z (Ideal.ofBits .f32 0x00000000#32) (ix1 P) = _
  rw [Ideal.hostReduceAdd_single reducesTo_S50000x40_S50000_d1 reduces_S50000x40_S50000_d1, Ideal.ofBits_zero_f32, zero_add]
  show ∑ k : Fin 40, z (reduces_S50000x40_S50000_d1.lift (ix1 P) k) = _
  simp only [lift_rowR]

/-- The repeated row maximum at any entry of row `P`. -/
theorem rowMaxRef_apply (z : FVec Ideal S50000x40 .f32) (P : Fin 50000) (k : Fin 40) :
    rowMaxRef (F := Ideal) z (ix2 P k) = rowMax (fun k => z (ix2 P k)) := by
  unfold rowMaxRef
  rw [Cert.LibCols.inDim_a1_ab_apply, Cert.LibCols.inDim_a_a1_apply, maximumf_apply, Cert.LibRows.scalarInDim_apply, hostMax_apply]
  exact max_bot_rowMax _

theorem hostLog_apply {s : Shape} (a : FVec Ideal s .f32) (i : s.Idx) : Host.log a i = Ideal.log (a i) := rfl
theorem hostExp_apply {s : Shape} (a : FVec Ideal s .f32) (i : s.Idx) : Host.exp a i = Ideal.exp (a i) := rfl

/-- The reference's last step is the logarithm of the softmax along every row. -/
theorem logSoftmaxRef_eq (z : FVec Ideal S50000x40 .f32) : logSoftmaxRef (F := Ideal) z = lsmAll z := by
  funext i
  obtain ⟨P, q, rfl⟩ : ∃ (P : Fin 50000) (q : Fin 40), i = ix2 P q := ⟨i 0, i 1, eq_ix2 i⟩
  rw [lsmAll_apply]
  unfold logSoftmaxRef lsmRow
  rw [subf_apply, subf_apply, rowMaxRef_apply, Cert.LibCols.inDim_a1_ab_apply, hostLog_apply, Cert.LibCols.inDim_a_a1_apply,
    hostSum_apply]
  simp only [hostExp_apply, subf_apply, rowMaxRef_apply]

end Cert.Gcn

end
-- ==== Proof.ValueK.lean ====
/-
  The idealized kernel's result as a function of its arguments. Walking the boundaries from the launch memory: the
  stretch before the first launch leaves the arguments alone and the edge list's rows as vectors; the first launch
  leaves the first product; the next stretches leave the first layer's output and touch neither the rows, the second
  weights nor the second bias; the second launch leaves the second product; the next stretches leave the second
  layer's output; the third launch leaves the logarithm of the softmax along its rows. That composition is the
  reference's function of the arguments: the products are the host's products and the last step the host's last step.
-/
import proofs.«107621_j80255758893370_1_alg».proof.Proof.Gen.KernelIdeal.Frame
import proofs.«107621_j80255758893370_1_alg».proof.Proof.KRun
import proofs.«107621_j80255758893370_1_alg».proof.Proof.Mat0
import proofs.«107621_j80255758893370_1_alg».proof.Proof.Mat1
import proofs.«107621_j80255758893370_1_alg».proof.Proof.Reg2
import proofs.«107621_j80255758893370_1_alg».proof.Proof.ChainK
import proofs.«107621_j80255758893370_1_alg».proof.Proof.LsmR
import proofs.«107621_j80255758893370_1_alg».proof.Proof.Spec

set_option maxRecDepth 16384

noncomputable section

namespace Cert.KernelIdeal.GcnValue

open Cert.KernelIdeal Cert.KernelIdeal.Gen
open Idealize.ShloMosaic Idealize.ShloMosaic.TcCoe Idealize.SL.Sem Idealize.ShloMosaic.StableHlo Cert.RowLsm

variable (m : (ℓ : Loc nD τ sig) → Buf (Elt Ideal) ℓ) (ρ : Dev nD → PrngReg) (c : Dev nD)

/-! ## Up to the first launch -/

theorem V1_arg0 : V1 m ρ c main_arg0 = (m ((c : Thread nD τ).loc main_arg0)) := (GcnChain.pre_keep_arg0 (W0 m ρ c)).trans rfl
theorem V1_arg2 : V1 m ρ c main_arg2 = (m ((c : Thread nD τ).loc main_arg2)) := (GcnChain.pre_keep_arg2 (W0 m ρ c)).trans rfl

/-- The first launch leaves the first product. -/
theorem W2_v4 : W2 m ρ c (Proc.devRef .tc main_v4) = (Cert.KernelIdeal.GcnMat0.prod (m ((c : Thread nD τ).loc main_arg0)) (m ((c : Thread nD τ).loc main_arg2))) :=
  (W2_arr m ρ c 2).trans ((GcnMat0.final (V1 m ρ) c).trans (by rw [V1_arg0, V1_arg2]))

theorem W2_v1 : W2 m ρ c (Proc.devRef .tc main_v1) = (Cert.Gcn.row0 (m ((c : Thread nD τ).loc main_arg1))) :=
  (W2_of_ne m ρ c main_v1 (by decide)).trans ((GcnChain.row0_eq (W0 m ρ c)).trans rfl)
theorem W2_v3 : W2 m ρ c (Proc.devRef .tc main_v3) = (Cert.Gcn.row1 (m ((c : Thread nD τ).loc main_arg1))) :=
  (W2_of_ne m ρ c main_v3 (by decide)).trans ((GcnChain.row1_eq (W0 m ρ c)).trans rfl)
theorem W2_arg3 : W2 m ρ c (Proc.devRef .tc main_arg3) = (m ((c : Thread nD τ).loc main_arg3)) :=
  (W2_of_ne m ρ c main_arg3 (by decide)).trans ((GcnChain.pre_keep_arg3 (W0 m ρ c)).trans rfl)
theorem W2_arg4 : W2 m ρ c (Proc.devRef .tc main_arg4) = (m ((c : Thread nD τ).loc main_arg4)) :=
  (W2_of_ne m ρ c main_arg4 (by decide)).trans ((GcnChain.pre_keep_arg4 (W0 m ρ c)).trans rfl)
theorem W2_arg5 : W2 m ρ c (Proc.devRef .tc main_arg5) = (m ((c : Thread nD τ).loc main_arg5)) :=
  (W2_of_ne m ρ c main_arg5 (by decide)).trans ((GcnChain.pre_keep_arg5 (W0 m ρ c)).trans rfl)

/-! ## Up to the second launch -/

/-- The second launch finds the first layer's output, cut at 0. -/
theorem V6_v47 : V6 m ρ c main_v47 = (Cert.Gcn.relu128 (Cert.Gcn.layer128 (Cert.Gcn.row0 (m ((c : Thread nD τ).loc main_arg1))) (Cert.Gcn.row1 (m ((c : Thread nD τ).loc main_arg1))) (Cert.KernelIdeal.GcnMat0.prod (m ((c : Thread nD τ).loc main_arg0)) (m ((c : Thread nD τ).loc main_arg2))) (m ((c : Thread nD τ).loc main_arg3)))) :=
  (GcnChain.hidden_eq (W2 m ρ c)).trans (by rw [W2_v1, W2_v3, W2_v4, W2_arg3])
theorem V6_arg4 : V6 m ρ c main_arg4 = (m ((c : Thread nD τ).loc main_arg4)) := (GcnChain.mid_keep_arg4 (W2 m ρ c)).trans (W2_arg4 m ρ c)

/-- The second launch leaves the second product. -/
theorem W7_v48 : W7 m ρ c (Proc.devRef .tc main_v48) = (Cert.KernelIdeal.GcnMat1.prod (Cert.Gcn.relu128 (Cert.Gcn.layer128 (Cert.Gcn.row0 (m ((c : Thread nD τ).loc main_arg1))) (Cert.Gcn.row1 (m ((c : Thread nD τ).loc main_arg1))) (Cert.KernelIdeal.GcnMat0.prod (m ((c : Thread nD τ).loc main_arg0)) (m ((c : Thread nD τ).loc main_arg2))) (m ((c : Thread nD τ).loc main_arg3)))) (m ((c : Thread nD τ).loc main_arg4))) :=
  (W7_arr m ρ c 2).trans ((GcnMat1.final (V6 m ρ) c).trans (by rw [V6_v47, V6_arg4]))

theorem W7_v1 : W7 m ρ c (Proc.devRef .tc main_v1) = (Cert.Gcn.row0 (m ((c : Thread nD τ).loc main_arg1))) :=
  (W7_of_ne m ρ c main_v1 (by decide)).trans ((GcnChain.mid_keep_v1 (W2 m ρ c)).trans (W2_v1 m ρ c))
theorem W7_v3 : W7 m ρ c (Proc.devRef .tc main_v3) = (Cert.Gcn.row1 (m ((c : Thread nD τ).loc main_arg1))) :=
  (W7_of_ne m ρ c main_v3 (by decide)).trans ((GcnChain.mid_keep_v3 (W2 m ρ c)).trans (W2_v3 m ρ c))
theorem W7_arg5 : W7 m ρ c (Proc.devRef .tc main_arg5) = (m ((c : Thread nD τ).loc main_arg5)) :=
  (W7_of_ne m ρ c main_arg5 (by decide)).trans ((GcnChain.mid_keep_arg5 (W2 m ρ c)).trans (W2_arg5 m ρ c))

/-! ## Up to the return -/

/-- The third launch finds the second layer's output. -/
theorem V10_v90 : V10 m ρ c main_v90 = (Cert.Gcn.layer40 (Cert.Gcn.row0 (m ((c : Thread nD τ).loc main_arg1))) (Cert.Gcn.row1 (m ((c : Thread nD τ).loc main_arg1))) (Cert.KernelIdeal.GcnMat1.prod (Cert.Gcn.relu128 (Cert.Gcn.layer128 (Cert.Gcn.row0 (m ((c : Thread nD τ).loc main_arg1))) (Cert.Gcn.row1 (m ((c : Thread nD τ).loc main_arg1))) (Cert.KernelIdeal.GcnMat0.prod (m ((c : Thread nD τ).loc main_arg0)) (m ((c : Thread nD τ).loc main_arg2))) (m ((c : Thread nD τ).loc main_arg3)))) (m ((c : Thread nD τ).loc main_arg4))) (m ((c : Thread nD τ).loc main_arg5))) :=
  (GcnChain.out_eq (W7 m ρ c)).trans (by rw [W7_v1, W7_v3, W7_v48, W7_arg5])

/-- The result buffer at the return: the logarithm of the softmax along the rows of the second layer's output. -/
theorem W11_v91 : W11 m ρ c (Proc.devRef .tc main_v91) = lsmAll (Cert.Gcn.layer40 (Cert.Gcn.row0 (m ((c : Thread nD τ).loc main_arg1))) (Cert.Gcn.row1 (m ((c : Thread nD τ).loc main_arg1))) (Cert.KernelIdeal.GcnMat1.prod (Cert.Gcn.relu128 (Cert.Gcn.layer128 (Cert.Gcn.row0 (m ((c : Thread nD τ).loc main_arg1))) (Cert.Gcn.row1 (m ((c : Thread nD τ).loc main_arg1))) (Cert.KernelIdeal.GcnMat0.prod (m ((c : Thread nD τ).loc main_arg0)) (m ((c : Thread nD τ).loc main_arg2))) (m ((c : Thread nD τ).loc main_arg3)))) (m ((c : Thread nD τ).loc main_arg4))) (m ((c : Thread nD τ).loc main_arg5))) :=
  (W11_arr m ρ c 1).trans ((GcnReg2.final (V10 m ρ) c).trans (by rw [V10_v90]))

/-- That is the reference's function of the arguments. -/
theorem out_eq_refOut : lsmAll (Cert.Gcn.layer40 (Cert.Gcn.row0 (m ((c : Thread nD τ).loc main_arg1))) (Cert.Gcn.row1 (m ((c : Thread nD τ).loc main_arg1))) (Cert.KernelIdeal.GcnMat1.prod (Cert.Gcn.relu128 (Cert.Gcn.layer128 (Cert.Gcn.row0 (m ((c : Thread nD τ).loc main_arg1))) (Cert.Gcn.row1 (m ((c : Thread nD τ).loc main_arg1))) (Cert.KernelIdeal.GcnMat0.prod (m ((c : Thread nD τ).loc main_arg0)) (m ((c : Thread nD τ).loc main_arg2))) (m ((c : Thread nD τ).loc main_arg3)))) (m ((c : Thread nD τ).loc main_arg4))) (m ((c : Thread nD τ).loc main_arg5)))
    = Cert.Gcn.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Cert.Gcn.refOut
  rw [Cert.Gcn.logSoftmaxRef_eq, GcnMat0.prod_eq_dotGeneral, GcnMat1.prod_eq_dotGeneral]
  rfl

/-- The idealized kernel's run: it terminates, nothing faulting, with the result at the reference's function of the
    arguments and the arguments as launched. -/
theorem run : θ_run defs (onTc (τ := τ) (main (F := Ideal))) ⟨m, fun _ => 0, ρ⟩ (fun r => ∀ c : Dev nD,
      r.2.mem ((c.tc : Thread nD τ).loc main_v91) = Cert.Gcn.refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans ((W11_v91 m ρ c).trans (out_eq_refOut m c)), (h c).2⟩)
    (Cert.KernelIdeal.GcnRun.run_named m ρ)

end Cert.KernelIdeal.GcnValue

end
-- ==== Proof.RefValue.lean ====
/-
  The reference's run, read back in three pieces. Its 134 host operations are cut after the cut at 0 that ends the
  first layer (65 operations) and after the second layer's bias (53 more); the last 16 are the logarithm of the softmax.
  From whatever the buffers hold when a piece begins, the first piece leaves the two rows of the edge list as vectors
  and the first layer's output, the second the second layer's output, the third the result; a buffer a piece does not
  write is left as it was. Composed from the launch memory, the result is the function `refOut` of the arguments.
-/
import proofs.«107621_j80255758893370_1_alg».proof.Proof.RefRun
import proofs.«107621_j80255758893370_1_alg».proof.Proof.Spec
import Idealize.ShloMosaic.Lib.StableHlo.Run

set_option maxRecDepth 16384

noncomputable section

namespace Cert.ReferenceIdeal.GcnRef

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a buffer's own type and back are the contents. -/
theorem ofBuf_toBuf {T : BufTy} (x : TRef sig T) (v : T.Contents (Elt F)) : x.ofBuf (x.toBuf v) = v := by
  obtain ⟨r, rfl, h2, h3⟩ := x
  rfl

/-- The second layer's output buffer and the result buffer hold 50000 × 40 numbers: carrying contents to their types changes nothing. -/
theorem ofBuf_v90 (w : (TRef.of (T := ⟨S50000x40, .f32⟩) main_v90 : TRef sig _).ref.ty.Contents (Elt F)) :
    (TRef.of (T := ⟨S50000x40, .f32⟩) main_v90 : TRef sig _).ofBuf w = w := rfl
theorem toBuf_v91 (v : (⟨S50000x40, .f32⟩ : BufTy).Contents (Elt F)) :
    (TRef.of (T := ⟨S50000x40, .f32⟩) main_v91 : TRef sig _).toBuf v = v := rfl

variable (W : Valuation τ sig (Elt F))

set_option maxHeartbeats 8000000 in
/-- The first 63 operations leave the first layer's output, cut at 0 … -/
theorem pieceA_hidden : after ((ops (F := F)).take 63) W (Proc.devRef .tc main_v47)
    = Cert.Gcn.relu128 (Cert.Gcn.layer128 (Cert.Gcn.row0 (W (Proc.devRef .tc main_arg1))) (Cert.Gcn.row1 (W (Proc.devRef .tc main_arg1)))
        (Host.dotGeneral dot_S50000x256_S256x128_S50000x128_1_0_0_1_n_n none (W (Proc.devRef .tc main_arg0)) (W (Proc.devRef .tc main_arg2))) (W (Proc.devRef .tc main_arg3))) := by
  simp only [ops, List.take_succ_cons, List.take_zero]
  after_results_simp
  rfl

set_option maxHeartbeats 8000000 in
/-- … and the edge list's rows as vectors, … -/
theorem pieceA_v1 : after ((ops (F := F)).take 63) W (Proc.devRef .tc main_v1) = Cert.Gcn.row0 (W (Proc.devRef .tc main_arg1)) := by
  simp only [ops, List.take_succ_cons, List.take_zero]
  after_results_simp
  rfl
set_option maxHeartbeats 8000000 in
theorem pieceA_v3 : after ((ops (F := F)).take 63) W (Proc.devRef .tc main_v3) = Cert.Gcn.row1 (W (Proc.devRef .tc main_arg1)) := by
  simp only [ops, List.take_succ_cons, List.take_zero]
  after_results_simp
  rfl

/-! … and touch neither the second weights nor the second bias. -/
set_option maxHeartbeats 8000000 in
theorem pieceA_keep_arg4 : after ((ops (F := F)).take 63) W (Proc.devRef .tc main_arg4) = (W (Proc.devRef .tc main_arg4)) := by
  simp only [ops, List.take_succ_cons, List.take_zero]
  after_results_simp
set_option maxHeartbeats 8000000 in
theorem pieceA_keep_arg5 : after ((ops (F := F)).take 63) W (Proc.devRef .tc main_arg5) = (W (Proc.devRef .tc main_arg5)) := by
  simp only [ops, List.take_succ_cons, List.take_zero]
  after_results_simp

set_option maxHeartbeats 8000000 in
/-- The next 56 operations: the second product and the second layer's aggregation of it. -/
theorem pieceB_out : after (((ops (F := F)).drop 63).take 56) W (Proc.devRef .tc main_v90)
    = Cert.Gcn.layer40 (W (Proc.devRef .tc main_v1)) (W (Proc.devRef .tc main_v3))
        (Host.dotGeneral dot_S50000x128_S128x40_S50000x40_1_0_0_1_n_n none (W (Proc.devRef .tc main_v47)) (W (Proc.devRef .tc main_arg4))) (W (Proc.devRef .tc main_arg5)) := by
  simp only [ops, List.drop_succ_cons, List.drop_zero, List.take_succ_cons, List.take_zero]
  after_results_simp
  rfl

set_option maxHeartbeats 4000000 in
/-- The last 15 operations: the logarithm of the softmax of the second layer's output. -/
theorem pieceC_out : after (((ops (F := F)).drop 63).drop 56) W (Proc.devRef .tc main_v91) = Cert.Gcn.logSoftmaxRef (W (Proc.devRef .tc main_v90)) := by
  simp only [ops, List.drop_succ_cons, List.drop_zero]
  after_results_simp
  simp only [ofBuf_toBuf]
  simp only [toBuf_v91, ofBuf_v90]
  unfold Cert.Gcn.logSoftmaxRef Cert.Gcn.rowMaxRef
  rfl

/-- The result buffer after all the operations, from any contents: the reference's function of the argument buffers. -/
theorem out_eq (V : Valuation τ sig (Elt F)) :
    after (ops (F := F)) V (Proc.devRef .tc main_v91)
      = Cert.Gcn.refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  have h : after (ops (F := F)) V = after (((ops (F := F)).drop 63).drop 56) (after (((ops (F := F)).drop 63).take 56) (after ((ops (F := F)).take 63) V)) := by
    rw [← after_append, ← after_append, List.take_append_drop, List.take_append_drop]
  rw [h, pieceC_out, pieceB_out, pieceA_hidden, pieceA_v1, pieceA_v3, pieceA_keep_arg4, pieceA_keep_arg5]
  rfl

set_option maxRecDepth 65536 in
set_option maxHeartbeats 53600000 in
/-- On every device, from any memory with zero counters: every weakly fair execution of the reference terminates with
    the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = Cert.Gcn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans ((out_eq _).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.GcnRef

end
-- ==== Proof.lean ====
/-
  A two-layer graph convolution with a row-wise log-softmax: the kernel against its reference, on the extended reals.
  The kernel computes the two dense products (50000 × 256 by 256 × 128, then 50000 × 128 by 128 × 40) and the final
  logarithm of the softmax in three grid launches of ten row blocks each, and everything between them — self loops,
  symmetric degree normalisation, gathering the source rows, scaling, adding up at the targets, bias, the cut at 0 —
  with the very host operations the reference uses. On the extended reals a block product rounded to a narrower
  format is the exact product of its rows, so each launch leaves the whole product; and the vector unit's row
  maximum and row sum are the host's, so the last launch leaves the reference's last step. Hence both programs end
  with one function of the arguments (`Cert.Gcn.refOut`); no law of arithmetic beyond `max ⊥ x = x` and `0 + x = x`
  is needed, so the precondition is never opened.
  The three frames are the programs' runs with the result dropped; the ideal pass rewrote nothing, so
  `preserves` is trivial.
-/
import proofs.«107621_j80255758893370_1_alg».proof.Defs
import proofs.«107621_j80255758893370_1_alg».proof.Proof.Gen.Kernel
import proofs.«107621_j80255758893370_1_alg».proof.Proof.Gen.Kernel.Skeleton
import proofs.«107621_j80255758893370_1_alg».proof.Proof.Gen.Kernel.Launch
import proofs.«107621_j80255758893370_1_alg».proof.Proof.Gen.Kernel.Points
import proofs.«107621_j80255758893370_1_alg».proof.Proof.Gen.Kernel.Frame
import proofs.«107621_j80255758893370_1_alg».proof.Proof.Gen.KernelIdeal
import proofs.«107621_j80255758893370_1_alg».proof.Proof.Gen.KernelIdeal.Skeleton
import proofs.«107621_j80255758893370_1_alg».proof.Proof.Gen.KernelIdeal.Launch
import proofs.«107621_j80255758893370_1_alg».proof.Proof.Gen.KernelIdeal.Points
import proofs.«107621_j80255758893370_1_alg».proof.Proof.Gen.KernelIdeal.Frame
import proofs.«107621_j80255758893370_1_alg».proof.Proof.Gen.ReferenceIdeal
import proofs.«107621_j80255758893370_1_alg».proof.Proof.Gen.Pre_finite_inputs
import proofs.«107621_j80255758893370_1_alg».proof.Proof.ValueK
import proofs.«107621_j80255758893370_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.GcnRef.run (F := Ideal) m ρ)

/-- The ideal pass rewrote nothing. -/
theorem preserves : Cert.preserves_Kernel_KernelIdeal := trivial

/-- Both programs end with `refOut` of arguments that agree. -/
theorem algebraic : Cert.algebraic_KernelIdeal_ReferenceIdeal := by
  intro m ρ m' ρ' _ hagree
  refine ⟨_, Cert.KernelIdeal.GcnValue.run m ρ, ?_⟩
  refine (θ_run Cert.ReferenceIdeal.defs _ _).mono (fun _ h c => ⟨(h c).1.trans ?_, (h c).2⟩)
    (Cert.ReferenceIdeal.GcnRef.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
